-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S11008x1 : Shape := ⟨2, ![11008, 1]⟩
abbrev S1x11008 : Shape := ⟨2, ![1, 11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S11008x1 : S_.BroadcastsInDim S11008x1 (![] : Fin 0 → Fin S11008x1.rank)
  reducesTo_S11008x1_S_d0_1 : S11008x1.ReducesTo [0, 1] S_
  bcast_S_S1x11008 : S_.BroadcastsInDim S1x11008 (![] : Fin 0 → Fin S1x11008.rank)
  reducesTo_S1x11008_S_d0_1 : S1x11008.ReducesTo [0, 1] S_

variable [Facts]

def fn_part1 {F : FTy → Type} [FloatOps F] (main_v13 : IVec S_ 1) (main_v16 : IVec S1x11008 1) : IVec S_ 1 :=
  let main_c_5 : IVec S_ 1 := constantI S_ 1 1#1
  let main_v17 : IVec S_ 1 := (fun x v => Host.reduce IntOp.andi x v reducesTo_S1x11008_S_d0_1 h_S_) main_v16 main_c_5
  let main_v18 : IVec S_ 1 := andi main_v13 main_v17
  main_v18

def fn {F : FTy → Type} [FloatOps F] (main_arg0 : FVec F S4x2048x4096 .f32) (main_arg1 : FVec F S11008x4096 .f32) (main_arg2 : FVec F S11008x1 .f32) (main_arg3 : FVec F S1x11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008x1 .f32 := Host.absf main_arg2
  let main_cst_2 : FVec F S_ .f32 := constant S_ .f32 0x7F800000#32
  let main_v10 : FVec F S11008x1 .f32 := broadcastInDim S11008x1 ![] bcast_S_S11008x1 main_cst_2
  let main_v11 : IVec S11008x1 1 := cmpf .olt main_v9 main_v10
  let main_c_3 : IVec S_ 1 := constantI S_ 1 1#1
  let main_v12 : IVec S_ 1 := (fun x v => Host.reduce IntOp.andi x v reducesTo_S11008x1_S_d0_1 h_S_) main_v11 main_c_3
  let main_v13 : IVec S_ 1 := andi main_v8 main_v12
  let main_v14 : FVec F S1x11008 .f32 := Host.absf main_arg3
  let main_cst_4 : FVec F S_ .f32 := constant S_ .f32 0x7F800000#32
  let main_v15 : FVec F S1x11008 .f32 := broadcastInDim S1x11008 ![] bcast_S_S1x11008 main_cst_4
  let main_v16 : IVec S1x11008 1 := cmpf .olt main_v14 main_v15
  fn_part1 (F := F) main_v13 main_v16
-- ==== Kernel.lean ====
abbrev S4x2048x4096 : Shape := ⟨3, ![4, 2048, 4096]⟩
abbrev S11008x4096 : Shape := ⟨2, ![11008, 4096]⟩
abbrev S11008x1 : Shape := ⟨2, ![11008, 1]⟩
abbrev S1x11008 : Shape := ⟨2, ![1, 11008]⟩
abbrev S8192x4096 : Shape := ⟨2, ![8192, 4096]⟩
abbrev S_ : Shape := ⟨0, ![]⟩
abbrev S11264x4096 : Shape := ⟨2, ![11264, 4096]⟩
abbrev S1x11264 : Shape := ⟨2, ![1, 11264]⟩
abbrev S8192x11264 : Shape := ⟨2, ![8192, 11264]⟩
abbrev S2048x512 : Shape := ⟨2, ![2048, 512]⟩
abbrev S1408x512 : Shape := ⟨2, ![1408, 512]⟩
abbrev S1x1408 : Shape := ⟨2, ![1, 1408]⟩
abbrev S2048x1408 : Shape := ⟨2, ![2048, 1408]⟩
abbrev S8192x11008 : Shape := ⟨2, ![8192, 11008]⟩
abbrev S4x2048x11008 : Shape := ⟨3, ![4, 2048, 11008]⟩

abbrev nBuf : Space → Nat
  | .hbm => 18
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008x1, .f32⟩
  | .hbm, ⟨3, _⟩ => ⟨S1x11008, .f32⟩
  | .hbm, ⟨4, _⟩ => ⟨S8192x4096, .f32⟩
  | .hbm, ⟨5, _⟩ => ⟨S11008x4096, .f32⟩
  | .hbm, ⟨6, _⟩ => ⟨S11008x4096, .f32⟩
  | .hbm, ⟨7, _⟩ => ⟨S11008x4096, .bf16⟩
  | .hbm, ⟨8, _⟩ => ⟨S8192x4096, .bf16⟩
  | .hbm, ⟨9, _⟩ => ⟨S_, .i32⟩
  | .hbm, ⟨10, _⟩ => ⟨S_, .bf16⟩
  | .hbm, ⟨11, _⟩ => ⟨S11264x4096, .bf16⟩
  | .hbm, ⟨12, _⟩ => ⟨S_, .i32⟩
  | .hbm, ⟨13, _⟩ => ⟨S_, .f32⟩
  | .hbm, ⟨14, _⟩ => ⟨S1x11264, .f32⟩
  | .hbm, ⟨15, _⟩ => ⟨S8192x11264, .f32⟩
  | .hbm, ⟨16, _⟩ => ⟨S8192x11008, .f32⟩
  | .hbm, ⟨17, _⟩ => ⟨S4x2048x11008, .f32⟩
  | .local _ .vmem, ⟨0, _⟩ => ⟨S2048x512, .bf16⟩
  | .local _ .vmem, ⟨1, _⟩ => ⟨S2048x512, .bf16⟩
  | .local _ .vmem, ⟨2, _⟩ => ⟨S1408x512, .bf16⟩
  | .local _ .vmem, ⟨3, _⟩ => ⟨S1408x512, .bf16⟩
  | .local _ .vmem, ⟨4, _⟩ => ⟨S1x1408, .f32⟩
  | .local _ .vmem, ⟨5, _⟩ => ⟨S1x1408, .f32⟩
  | .local _ .vmem, ⟨6, _⟩ => ⟨S2048x1408, .f32⟩
  | .local _ .vmem, ⟨7, _⟩ => ⟨S2048x1408, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x2048x4096_S8192x4096 : S4x2048x4096.ShapeCasts S8192x4096
  bcast_S11008x1_S11008x4096_0_1 : S11008x1.BroadcastsInDim S11008x4096 (![0, 1] : Fin 2 → Fin S11008x4096.rank)
  bitsLt_bf16_f32 : FTy.bits .bf16 < FTy.bits .f32
  pads_S11008x4096_S11264x4096_02560_000 : S11008x4096.Pads (![0, 0] : Fin 2 → Nat) ![256, 0] ![0, 0] S11264x4096
  h_S_ : 0 < S_.numel
  pads_S1x11008_S1x11264_000_02560 : S1x11008.Pads (![0, 0] : Fin 2 → Nat) ![0, 256] ![0, 0] S1x11264
  inb_S2048x1408_S2048x1408_0_0 : ∀ a, (![0, 0] : Fin 2 → Nat) a + S2048x1408.size a ≤ S2048x1408.size a
  h_S2048x1408 : 0 < S2048x1408.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1408x512_S1408x512_0_0 : ∀ a, (![0, 0] : Fin 2 → Nat) a + S1408x512.size a ≤ S1408x512.size a
  h_S1408x512 : 0 < S1408x512.numel
  shapeCasts_S1408x512_S1408x512 : S1408x512.ShapeCasts S1408x512
  shapeCasts_S2048x1408_S2048x1408 : S2048x1408.ShapeCasts S2048x1408
  inb_S1x1408_S1x1408_0_0 : ∀ a, (![0, 0] : Fin 2 → Nat) a + S1x1408.size a ≤ S1x1408.size a
  h_S1x1408 : 0 < S1x1408.numel
  shapeCasts_S1x1408_S1x1408 : S1x1408.ShapeCasts S1x1408
  broadcasts_S1x1408_S2048x1408 : S1x1408.Broadcasts S2048x1408
  slices_S8192x11264_S8192x11008_0_0 : S8192x11264.Slices ![0, 0] S8192x11008
  shapeCasts_S8192x11008_S4x2048x11008 : S8192x11008.ShapeCasts S4x2048x11008
  dot_S2048x512_S1408x512_S2048x1408_1_1_0_0_n_n_wf : DotDims.WF S2048x512 S1408x512 S2048x1408 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .bf16 = 32 ∨ (Rect.block (s := S8192x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1408x512.size a ≤ S11264x4096.size a
  hwx0_1 : ∀ i : grid0.Coords, EltTy.bits .bf16 = 32 ∨ (Rect.block (s := S11264x4096) S1408x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1408.size a ≤ S1x11264.size a
  hwx0_2 : ∀ i : grid0.Coords, EltTy.bits .f32 = 32 ∨ (Rect.block (s := S1x11264) S1x1408.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1408.size a ≤ S8192x11264.size a
  hwx0_3 : ∀ i : grid0.Coords, EltTy.bits .f32 = 32 ∨ (Rect.block (s := S8192x11264) S2048x1408.size (cc0_transform_3 i) (hinb0_3 i)).WholeWords (EltTy.packing .f32)

variable [Facts₀]

def dot_S2048x512_S1408x512_S2048x1408_1_1_0_0_n_n : DotDims S2048x512 S1408x512 S2048x1408 where
  lhsContracting := [1]
  rhsContracting := [1]
  lhsNonContracting := [0]
  rhsNonContracting := [0]
  lhsBatch := []
  rhsBatch := []
  wf := dot_S2048x512_S1408x512_S2048x1408_1_1_0_0_n_n_wf

abbrev win0_0 : Pipeline.Window sig grid0 :=
  Pipeline.Window.ofSpec (Memref.whole main_v4) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1408x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1408.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S2048x1408.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S11008x1 : Shape := ⟨2, ![11008, 1]⟩
abbrev S1x11008 : Shape := ⟨2, ![1, 11008]⟩
abbrev S8192x4096 : Shape := ⟨2, ![8192, 4096]⟩
abbrev S4096x11008 : Shape := ⟨2, ![4096, 11008]⟩
abbrev S8192x11008 : Shape := ⟨2, ![8192, 11008]⟩
abbrev S4x2048x11008 : Shape := ⟨3, ![4, 2048, 11008]⟩
abbrev S1x1x11008 : Shape := ⟨3, ![1, 1, 11008]⟩

abbrev nBuf : Space → Nat
  | .hbm => 13
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008x1, .f32⟩
  | .hbm, ⟨3, _⟩ => ⟨S1x11008, .f32⟩
  | .hbm, ⟨4, _⟩ => ⟨S8192x4096, .f32⟩
  | .hbm, ⟨5, _⟩ => ⟨S11008x4096, .f32⟩
  | .hbm, ⟨6, _⟩ => ⟨S11008x4096, .f32⟩
  | .hbm, ⟨7, _⟩ => ⟨S4096x11008, .f32⟩
  | .hbm, ⟨8, _⟩ => ⟨S8192x11008, .f32⟩
  | .hbm, ⟨9, _⟩ => ⟨S4x2048x11008, .f32⟩
  | .hbm, ⟨10, _⟩ => ⟨S1x1x11008, .f32⟩
  | .hbm, ⟨11, _⟩ => ⟨S4x2048x11008, .f32⟩
  | .hbm, ⟨12, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  shapeCasts_S4x2048x4096_S8192x4096 : S4x2048x4096.ShapeCasts S8192x4096
  bcast_S11008x1_S11008x4096_0_1 : S11008x1.BroadcastsInDim S11008x4096 (![0, 1] : Fin 2 → Fin S11008x4096.rank)
  transposes_S11008x4096_S4096x11008_1_0 : S11008x4096.Transposes [1, 0] S4096x11008
  shapeCasts_S8192x11008_S4x2048x11008 : S8192x11008.ShapeCasts S4x2048x11008
  bcast_S1x11008_S1x1x11008_1_2 : S1x11008.BroadcastsInDim S1x1x11008 (![1, 2] : Fin 2 → Fin S1x1x11008.rank)
  bcast_S1x1x11008_S4x2048x11008_0_1_2 : S1x1x11008.BroadcastsInDim S4x2048x11008 (![0, 1, 2] : Fin 3 → Fin S4x2048x11008.rank)
  dot_S8192x4096_S4096x11008_S8192x11008_1_0_0_1_n_n_wf : DotDims.WF S8192x4096 S4096x11008 S8192x11008 [1] [0] [0] [1] [] []

variable [Facts₀]

def dot_S8192x4096_S4096x11008_S8192x11008_1_0_0_1_n_n : DotDims S8192x4096 S4096x11008 S8192x11008 where
  lhsContracting := [1]
  rhsContracting := [0]
  lhsNonContracting := [0]
  rhsNonContracting := [1]
  lhsBatch := []
  rhsBatch := []
  wf := dot_S8192x4096_S4096x11008_S8192x11008_1_0_0_1_n_n_wf

class Facts : Prop extends Facts₀ where

variable [Facts]
-- ==== Proof.BodyCases.lean ====
/-
  What one run of the kernel body leaves in the output block, case by case.

  The body adds the product of its two input blocks into the output block.  At the first slab of a
  contraction it first stores zeros there; at the last slab it then adds the bias row to every row.
-/
import proofs.«125276_j8504035246563_2_alg».proof.Proof.Gen.KernelIdeal.Frame
import Idealize.ShloMosaic.Lib.Pipeline.Value
import Idealize.ShloMosaic.Lib.Tactic

set_option maxRecDepth 16384

noncomputable section

namespace Cert.KernelIdeal.Cases

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- A middle slab: the block holding `acc` ends holding `acc` plus the product of the two input blocks. -/
theorem out_B (c : Dev nD) (i : grid0.Coords) (a3 : Memref sig .tc .vmem S2048x512 .bf16) (h3 : a3.IsWhole)
    (a4 : Memref sig .tc .vmem S1408x512 .bf16) (h4 : a4.IsWhole) (a5 : Memref sig .tc .vmem S1x1408 .f32) (h5 : a5.IsWhole)
    (a6 : Memref sig .tc .vmem S2048x1408 .f32) (h6 : a6.IsWhole) (hc0 : ¬cond0_0 i) (hc1 : ¬cond0_1 i)
    (x0 : Vec F S2048x512 .bf16) (x1 : Vec F S1408x512 .bf16) (x2 : Vec F S1x1408 .f32) (acc : Vec F S2048x1408 .f32) :
    out0_B_3 c i a3 h3 a4 h4 a5 h5 a6 h6 hc0 hc1 x0 x1 x2 acc = k0_pay2 x0 x1 acc := by
  unfold out0_B_3
  rw [View.read_writes_eq_canon _ _ _ (cover0_B_3 c i a3 h3 a4 h4 a5 h5 a6 h6 hc0 hc1 x0 x1 x2 acc)]
  unfold kernelRun0_B
  dsimp only
  rw [View.canon_unit_zero hz]
  simp only [View.readAt_eq_ld, h3.read_unread, h4.read_unread, h6.read_unread, View.ld_unit_zero (S := S2048x512) hz,
    View.ld_unit_zero (S := S1408x512) hz, View.ld_unit_zero (S := S2048x1408) hz]

/-- The first slab: the block is zeroed, then the product of the two input blocks is added. -/
theorem out_A (c : Dev nD) (i : grid0.Coords) (a3 : Memref sig .tc .vmem S2048x512 .bf16) (h3 : a3.IsWhole)
    (a4 : Memref sig .tc .vmem S1408x512 .bf16) (h4 : a4.IsWhole) (a5 : Memref sig .tc .vmem S1x1408 .f32) (h5 : a5.IsWhole)
    (a6 : Memref sig .tc .vmem S2048x1408 .f32) (h6 : a6.IsWhole) (hc0 : cond0_0 i) (hc1 : ¬cond0_1 i)
    (x0 : Vec F S2048x512 .bf16) (x1 : Vec F S1408x512 .bf16) (x2 : Vec F S1x1408 .f32) :
    out0_A_3 c i a3 h3 a4 h4 a5 h5 a6 h6 hc0 hc1 x0 x1 x2 = k0_pay2 x0 x1 (k0_pay1 (F := F)) := by
  unfold out0_A_3
  rw [View.read_writes_eq_canon _ _ _ (cover0_A_3 c i a3 h3 a4 h4 a5 h5 a6 h6 hc0 hc1 x0 x1 x2)]
  unfold kernelRun0_A
  dsimp only
  sl_unfold_words
  rw [View.canon_cons_unit_zero (S := S2048x1408) hz, View.readCov_unit_zero (S := S2048x1408) _ hz]
  simp only [View.readAt_eq_ld, h3.read_unread, h4.read_unread, View.ld_unit_zero (S := S2048x512) hz,
    View.ld_unit_zero (S := S1408x512) hz]

/-- The last slab: the product is added to `acc`, then the bias row is added to every row. -/
theorem out_C (c : Dev nD) (i : grid0.Coords) (a3 : Memref sig .tc .vmem S2048x512 .bf16) (h3 : a3.IsWhole)
    (a4 : Memref sig .tc .vmem S1408x512 .bf16) (h4 : a4.IsWhole) (a5 : Memref sig .tc .vmem S1x1408 .f32) (h5 : a5.IsWhole)
    (a6 : Memref sig .tc .vmem S2048x1408 .f32) (h6 : a6.IsWhole) (hc0 : ¬cond0_0 i) (hc1 : cond0_1 i)
    (x0 : Vec F S2048x512 .bf16) (x1 : Vec F S1408x512 .bf16) (x2 : Vec F S1x1408 .f32) (acc : Vec F S2048x1408 .f32) :
    out0_C_3 c i a3 h3 a4 h4 a5 h5 a6 h6 hc0 hc1 x0 x1 x2 acc = k0_pay3 (k0_pay2 x0 x1 acc) x2 := by
  unfold out0_C_3
  rw [View.read_writes_eq_canon _ _ _ (cover0_C_3 c i a3 h3 a4 h4 a5 h5 a6 h6 hc0 hc1 x0 x1 x2 acc)]
  unfold kernelRun0_C
  dsimp only
  sl_unfold_words
  rw [View.canon_cons_unit_zero (S := S2048x1408) hz, View.readCov_unit_zero (S := S2048x1408) _ hz]
  simp only [View.readAt_eq_ld, h3.read_unread, h4.read_unread, h5.read_unread, h6.read_unread,
    View.ld_unit_zero (S := S2048x512) hz, View.ld_unit_zero (S := S1408x512) hz, View.ld_unit_zero (S := S1x1408) hz,
    View.ld_unit_zero (S := S2048x1408) hz]

end Cert.KernelIdeal.Cases

end
-- ==== Proof.LibDenseRows.lean ====
/-
  A layer computed from weight rows, read at an index.

  A kernel may multiply a block of `K` item rows `[K, N]` by `Q` weight rows `[Q, N]` without transposing
  the weights: the matrix unit contracts the second axis of both operands. Into a zero accumulator, over the extended
  reals, entry `(p, q)` of the product is the plain sum `Σ n, X (p, n) * W (q, n)`; with a bias row `[1, Q]`
  laid along every row of the block added, it is that sum plus `bias (0, q)`. In particular column `q` of the
  result depends on row `q` of the weights and entry `q` of the bias only.
-/
import Idealize.ShloMosaic.Lib.ValueIdx
import Idealize.ShloMosaic.Lib.ValueLayout
import Idealize.ShloMosaic.PureOps.Ideal.Laws

noncomputable section

namespace Idealize.ShloMosaic.DenseRows

open Idealize.ShloMosaic Idealize.ShloMosaic.ValueIdx

/-- The dimension numbers of `[K, N] · [Q, N]ᵀ → [K, Q]`. -/
abbrev rowDims (K N Q : Nat)
    (wf : DotDims.WF ⟨2, ![K, N]⟩ ⟨2, ![Q, N]⟩ ⟨2, ![K, Q]⟩ [1] [1] [0] [0] [] []) :
    DotDims ⟨2, ![K, N]⟩ ⟨2, ![Q, N]⟩ ⟨2, ![K, Q]⟩ where
  lhsContracting := [1]
  rhsContracting := [1]
  lhsNonContracting := [0]
  rhsNonContracting := [0]
  lhsBatch := []
  rhsBatch := []
  wf := wf

section
variable {K N Q : Nat} (wf : DotDims.WF ⟨2, ![K, N]⟩ ⟨2, ![Q, N]⟩ ⟨2, ![K, Q]⟩ [1] [1] [0] [0] [] [])

/-- The left operand's row is the result's row. -/
theorem lhs_row (j : (⟨2, ![K, Q]⟩ : Shape).Idx) (c : (rowDims K N Q wf).contr.Idx) :
    ((rowDims K N Q wf).lhsIdx j c (0 : Fin 2)).val = (j 0).val := by
  unfold DotDims.lhsIdx
  rw [dif_neg (show ¬ (0 : Fin 2) ∈ (rowDims K N Q wf).lhsBatch from List.not_mem_nil),
    dif_pos (show (0 : Fin 2) ∈ (rowDims K N Q wf).lhsNonContracting from List.mem_singleton.mpr rfl)]
  rfl

/-- The left operand's column is the contraction position. -/
theorem lhs_col (j : (⟨2, ![K, Q]⟩ : Shape).Idx) (c : (rowDims K N Q wf).contr.Idx) :
    ((rowDims K N Q wf).lhsIdx j c (1 : Fin 2)).val = (c ⟨0, Nat.one_pos⟩).val :=
  (rowDims K N Q wf).lhsIdx_val_of_single rfl j c

/-- The right operand's row is the result's column. -/
theorem rhs_row (j : (⟨2, ![K, Q]⟩ : Shape).Idx) (c : (rowDims K N Q wf).contr.Idx) :
    ((rowDims K N Q wf).rhsIdx j c (0 : Fin 2)).val = (j 1).val := by
  unfold DotDims.rhsIdx
  rw [dif_neg (show ¬ (0 : Fin 2) ∈ (rowDims K N Q wf).rhsBatch from List.not_mem_nil),
    dif_pos (show (0 : Fin 2) ∈ (rowDims K N Q wf).rhsNonContracting from List.mem_singleton.mpr rfl)]
  rfl

/-- The right operand's column is the contraction position. -/
theorem rhs_col (j : (⟨2, ![K, Q]⟩ : Shape).Idx) (c : (rowDims K N Q wf).contr.Idx) :
    ((rowDims K N Q wf).rhsIdx j c (1 : Fin 2)).val = (c ⟨0, Nat.one_pos⟩).val :=
  (rowDims K N Q wf).rhsIdx_val_of_single rfl j c

/-- Entry `(p, q)` of the product into a zero accumulator is `Σ n, X (p, n) * W (q, n)`. -/
theorem matmul_rows_zero_apply {φ₁ φ₂ : FTy} (X : FVec Ideal ⟨2, ![K, N]⟩ φ₁) (W : FVec Ideal ⟨2, ![Q, N]⟩ φ₂)
    (p : Fin K) (q : Fin Q) :
    FloatOps.matmul (rowDims K N Q wf) none X W (constant ⟨2, ![K, Q]⟩ .f32 0x00000000#32) (ix2 p q)
      = ∑ n : Fin N, X (ix2 p n) * W (ix2 q n) := by
  rw [Ideal.matmul_constant_zero_apply, ← Equiv.sum_comp (contrEquiv1 (rowDims K N Q wf) N rfl rfl).symm]
  refine Finset.sum_congr rfl fun n _ => ?_
  have hn := contrEquiv1_symm_val (rowDims K N Q wf) N rfl rfl n
  have el : (rowDims K N Q wf).lhsIdx (ix2 p q) ((contrEquiv1 (rowDims K N Q wf) N rfl rfl).symm n) = ix2 p n :=
    funext fun a => Fin.ext (by
      match a with
      | ⟨0, _⟩ => exact lhs_row wf _ _
      | ⟨1, _⟩ => exact (lhs_col wf _ _).trans hn)
  have er : (rowDims K N Q wf).rhsIdx (ix2 p q) ((contrEquiv1 (rowDims K N Q wf) N rfl rfl).symm n) = ix2 q n :=
    funext fun a => Fin.ext (by
      match a with
      | ⟨0, _⟩ => exact rhs_row wf _ _
      | ⟨1, _⟩ => exact (rhs_col wf _ _).trans hn)
  rw [el, er]

/-- Entry `(p, q)` of `X · Wᵀ + bias`, the bias one row laid along every row. -/
theorem affine_rows_apply {φ₁ φ₂ : FTy} (X : FVec Ideal ⟨2, ![K, N]⟩ φ₁) (W : FVec Ideal ⟨2, ![Q, N]⟩ φ₂)
    (bias : FVec Ideal ⟨2, ![1, Q]⟩ .f32) (hb : (⟨2, ![1, Q]⟩ : Shape).Broadcasts ⟨2, ![K, Q]⟩) (p : Fin K) (q : Fin Q) :
    addf (matmul (rowDims K N Q wf) none X W (constant ⟨2, ![K, Q]⟩ .f32 0x00000000#32))
        (broadcastTo ⟨2, ![K, Q]⟩ bias hb) (ix2 p q)
      = (∑ n : Fin N, X (ix2 p n) * W (ix2 q n)) + bias (ix2 (0 : Fin 1) q) := by
  show FloatOps.matmul (rowDims K N Q wf) none X W (constant ⟨2, ![K, Q]⟩ .f32 0x00000000#32) (ix2 p q)
      + broadcastTo ⟨2, ![K, Q]⟩ bias hb (ix2 p q) = _
  rw [matmul_rows_zero_apply wf X W p q, broadcastTo_1b_ab_apply bias hb p q]

end

end Idealize.ShloMosaic.DenseRows

end
-- ==== Proof.SlabStep.lean ====
/-
  One step of the kernel body read at an entry, over the extended reals.

  Entry `(p, q)` of the block after a slab is the entry before it plus `Σ l < 512, a (p, l) * w (q, l)`, where `a` is the
  slab's block of activations and `w` its block of weight rows; the zero block is `0` everywhere; adding the bias row
  adds `b (0, q)` to every entry of column `q`.
-/
import proofs.«125276_j8504035246563_2_alg».proof.Proof.Gen.KernelIdeal.Skeleton
import proofs.«125276_j8504035246563_2_alg».proof.Proof.LibDenseRows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Step

open Idealize.ShloMosaic Idealize.ShloMosaic.ValueIdx
open Cert.KernelIdeal Cert.KernelIdeal.Gen
open scoped BigOperators

/-- The zero block is `0` at every entry. -/
theorem pay1_apply (j : S2048x1408.Idx) : k0_pay1 (F := Ideal) j = 0 := by
  unfold k0_pay1
  show Ideal.ofBits .f32 0x00000000#32 = 0
  exact Ideal.ofBits_zero_f32

/-- Adding a slab's product: entry `(p, q)` gains `Σ l, a (p, l) * w (q, l)`. -/
theorem pay2_apply (a : Vec Ideal S2048x512 .bf16) (w : Vec Ideal S1408x512 .bf16) (acc : Vec Ideal S2048x1408 .f32)
    (p : Fin 2048) (q : Fin 1408) :
    k0_pay2 a w acc (ix2 p q) = acc (ix2 p q) + ∑ l : Fin 512, a (ix2 p l) * w (ix2 q l) := by
  have e := DenseRows.matmul_rows_zero_apply (K := 2048) (N := 512) (Q := 1408) (φ₁ := .bf16) (φ₂ := .bf16)
    Facts₀.dot_S2048x512_S1408x512_S2048x1408_1_1_0_0_n_n_wf a w p q
  unfold k0_pay2
  simp only [shapeCast_self]
  exact congrArg (fun z => acc (ix2 p q) + z) e

/-- Adding the bias row: entry `(p, q)` gains `b (0, q)`. -/
theorem pay3_apply (v : Vec Ideal S2048x1408 .f32) (b : Vec Ideal S1x1408 .f32) (p : Fin 2048) (q : Fin 1408) :
    k0_pay3 v b (ix2 p q) = v (ix2 p q) + b (ix2 (0 : Fin 1) q) := by
  unfold k0_pay3
  simp only [shapeCast_self]
  exact congrArg (fun z => v (ix2 p q) + z)
    (broadcastTo_1b_ab_apply b Facts₀.broadcasts_S1x1408_S2048x1408 p q)

end Cert.KernelIdeal.Step

end
-- ==== Proof.BlockReads.lean ====
/-
  Where each window's block sits in its array.

  The grid is 4 × 8 × 8: point `t` is row block `t / 64`, column block `t / 8 % 8`, contraction slab `t % 8`.
  The activations' block at `t` is rows `t/64·2048 …`, columns `t%8·512 …`; the weight rows' block is rows
  `t/8%8·1408 …`, columns `t%8·512 …`; the bias block is columns `t/8%8·1408 …` of the one row; the output block is
  rows `t/64·2048 …`, columns `t/8%8·1408 …`.
-/
import proofs.«125276_j8504035246563_2_alg».proof.Proof.Gen.KernelIdeal.Frame
import Idealize.ShloMosaic.Lib.ValueIdx
import Idealize.ShloMosaic.Lib.Pipeline.Value

set_option maxRecDepth 16384

noncomputable section

namespace Cert.KernelIdeal.Blocks

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- The block numbers of the four windows at point `t`, decided over the 256 points. -/
theorem idx_facts : ∀ t : Fin cfg0.N,
    win0_0.index t (0 : Fin 2) = t.val / 64 ∧ win0_0.index t (1 : Fin 2) = t.val % 8
    ∧ win0_1.index t (0 : Fin 2) = t.val / 8 % 8 ∧ win0_1.index t (1 : Fin 2) = t.val % 8
    ∧ win0_2.index t (0 : Fin 2) = 0 ∧ win0_2.index t (1 : Fin 2) = t.val / 8 % 8
    ∧ win0_3.index t (0 : Fin 2) = t.val / 64 ∧ win0_3.index t (1 : Fin 2) = t.val / 8 % 8 :=
  (by decide +kernel : ∀ t : Fin grid0.N, _)

/-- The activations' block at `t`, entry `(p, l)`, is the array's entry `(t/64·2048 + p, t%8·512 + l)`. -/
theorem iblk0_apply (c : Dev nD) (t : Fin cfg0.N) (p : Fin 2048) (l : Fin 512) (r : Fin 8192) (k : Fin 4096)
    (hr : r.val = t.val / 64 * 2048 + p.val) (hk : k.val = t.val % 8 * 512 + l.val) :
    (iblk m c 0 t : Vec F S2048x512 .bf16) (ix2 p l) = V m c main_v4 (ix2 r k) := by
  obtain ⟨e0, e1, -⟩ := idx_facts t
  unfold iblk
  rw [View.read_apply]
  show V m c main_v4 _ = V m c main_v4 _
  congr 1
  funext a
  apply Fin.ext
  match a with
  | ⟨0, _⟩ => show win0_0.index t (0 : Fin 2) * 2048 + 1 * p.val = r.val; rw [e0, hr]; omega
  | ⟨1, _⟩ => show win0_0.index t (1 : Fin 2) * 512 + 1 * l.val = k.val; rw [e1, hk]; omega

/-- The weight rows' block at `t`, entry `(q, l)`, is the array's entry `(t/8%8·1408 + q, t%8·512 + l)`. -/
theorem iblk1_apply (c : Dev nD) (t : Fin cfg0.N) (q : Fin 1408) (l : Fin 512) (n : Fin 11264) (k : Fin 4096)
    (hn : n.val = t.val / 8 % 8 * 1408 + q.val) (hk : k.val = t.val % 8 * 512 + l.val) :
    (iblk m c 1 t : Vec F S1408x512 .bf16) (ix2 q l) = V m c main_v5 (ix2 n k) := by
  obtain ⟨-, -, e0, e1, -⟩ := idx_facts t
  unfold iblk
  rw [View.read_apply]
  show V m c main_v5 _ = V m c main_v5 _
  congr 1
  funext a
  apply Fin.ext
  match a with
  | ⟨0, _⟩ => show win0_1.index t (0 : Fin 2) * 1408 + 1 * q.val = n.val; rw [e0, hn]; omega
  | ⟨1, _⟩ => show win0_1.index t (1 : Fin 2) * 512 + 1 * l.val = k.val; rw [e1, hk]; omega

/-- The bias block at `t`, entry `(0, q)`, is the padded bias row's entry `(0, t/8%8·1408 + q)`. -/
theorem iblk2_apply (c : Dev nD) (t : Fin cfg0.N) (q : Fin 1408) (n : Fin 11264)
    (hn : n.val = t.val / 8 % 8 * 1408 + q.val) :
    (iblk m c 2 t : Vec F S1x1408 .f32) (ix2 (0 : Fin 1) q) = V m c main_v6 (ix2 (0 : Fin 1) n) := by
  obtain ⟨-, -, -, -, e0, e1, -⟩ := idx_facts t
  unfold iblk
  rw [View.read_apply]
  show V m c main_v6 _ = V m c main_v6 _
  congr 1
  funext a
  apply Fin.ext
  match a with
  | ⟨0, _⟩ => show win0_2.index t (0 : Fin 2) * 1 + 1 * 0 = 0; rw [e0]
  | ⟨1, _⟩ => show win0_2.index t (1 : Fin 2) * 1408 + 1 * q.val = n.val; rw [e1, hn]; omega

end Cert.KernelIdeal.Blocks

end
-- ==== Proof.LibBlockSum.lean ====
/-
  Regrouping a finite sum into consecutive blocks, and a running total as a finite sum.
  Everything here holds in any additive commutative monoid; the extended reals are one
  (their addition is commutative and associative with no finiteness side condition).
-/
import Idealize.ShloMosaic.PureOps.Ideal

open scoped BigOperators

namespace Cert.LibBlockSum

variable {M : Type*} [AddCommMonoid M]

/-- Position `k` of block `i`, for `n` blocks of `m` positions each, is a position below `n * m`. -/
theorem blockIdx_lt {n m i k : ℕ} (hi : i < n) (hk : k < m) : i * m + k < n * m := by
  calc i * m + k < i * m + m := by omega
    _ = (i + 1) * m := by ring
    _ ≤ n * m := Nat.mul_le_mul_right m hi

/-- A sum over `n * m` positions is the sum over the `n` blocks of the sum over the `m` positions
    of each block; position `k` of block `i` is `i * m + k`. -/
theorem sum_blocks_fin (n m : ℕ) (f : Fin (n * m) → M) :
    ∑ j : Fin (n * m), f j
      = ∑ i : Fin n, ∑ k : Fin m, f ⟨i.val * m + k.val, blockIdx_lt i.isLt k.isLt⟩ := by
  rw [← finProdFinEquiv.sum_comp, Fintype.sum_prod_type]
  refine Finset.sum_congr rfl fun i _ => Finset.sum_congr rfl fun k _ => ?_
  congr 1
  ext
  simp only [finProdFinEquiv_apply_val]
  ring

/-- The same regrouping with the block number running over the naturals below `n`. The block number
    is written `i % n`, which is `i` itself there, so that the position is in range for every `i`. -/
theorem sum_blocks_range (n m : ℕ) (hn : 0 < n) (f : Fin (n * m) → M) :
    ∑ j : Fin (n * m), f j
      = ∑ i ∈ Finset.range n, ∑ k : Fin m,
          f ⟨(i % n) * m + k.val, blockIdx_lt (Nat.mod_lt i hn) k.isLt⟩ := by
  rw [sum_blocks_fin n m f,
    ← Fin.sum_univ_eq_sum_range
      (fun i => ∑ k : Fin m, f ⟨(i % n) * m + k.val, blockIdx_lt (Nat.mod_lt i hn) k.isLt⟩) n]
  refine Finset.sum_congr rfl fun i _ => Finset.sum_congr rfl fun k _ => ?_
  congr 1
  ext
  simp only [Nat.mod_eq_of_lt i.isLt]

/-- 8192 positions as 32 blocks of 256, the block number a member of `Fin 32`. -/
theorem sum_blocks_fin32 (f : Fin 8192 → M) :
    ∑ j : Fin 8192, f j
      = ∑ i : Fin 32, ∑ k : Fin 256, f ⟨i.val * 256 + k.val, by omega⟩ :=
  sum_blocks_fin 32 256 f

/-- 8192 positions as 32 blocks of 256, the block number a natural below 32. -/
theorem sum_blocks (f : Fin 8192 → M) :
    ∑ j : Fin 8192, f j
      = ∑ i ∈ Finset.range 32, ∑ k : Fin 256, f ⟨(i % 32) * 256 + k.val, by omega⟩ :=
  sum_blocks_range 32 256 (by norm_num) f

/-- A running total that starts at the first term and adds the next term at every step is, after
    `n` steps, the sum of the first `n + 1` terms. -/
theorem fold_eq_sum (c acc : ℕ → M) (h0 : acc 0 = c 0)
    (hs : ∀ n, acc (n + 1) = acc n + c (n + 1)) (n : ℕ) :
    acc n = ∑ i ∈ Finset.range (n + 1), c i := by
  induction n with
  | zero => simp [h0]
  | succ n ih => rw [hs, ih, Finset.sum_range_succ _ (n + 1)]

end Cert.LibBlockSum
-- ==== Proof.DenseSpec.lean ====
/-
  The layer both programs compute, as one function of four arrays over the extended reals, and the way the
  kernel reaches it.

  With `X : [8192, 4096]` (the flattened activations), `W : [11264, 4096]` (the scaled weight rows, zero rows
  appended), `B : [1, 11264]` (the bias, zeros appended), entry `(r, n)` of the padded layer is
  `Σ k < 4096, X (r, k) * W (n, k) + B (0, n)`.  The kernel cuts the contraction axis into 8 slabs of 512
  positions and adds the slabs' partial products one after the other; addition of extended reals is commutative
  and associative with no side condition, so the eight partial products add up to the whole contraction.
-/
import Idealize.ShloMosaic.Lib.ValueIdx
import Idealize.ShloMosaic.PureOps.Ideal
import proofs.«125276_j8504035246563_2_alg».proof.Proof.LibBlockSum

noncomputable section

namespace Cert.Dense

open Idealize.ShloMosaic Idealize.ShloMosaic.ValueIdx
open scoped BigOperators

/-- Position `l` of slab `s` on the contraction axis (the slab number taken modulo 8, so that the position is in
    range for every natural `s`). -/
def kpos (s : ℕ) (l : Fin 512) : Fin 4096 :=
  ⟨(s % 8) * 512 + l.val, by have := l.isLt; have := Nat.mod_lt s (show 0 < 8 by norm_num); omega⟩

theorem kpos_val (s : ℕ) (l : Fin 512) : (kpos s l).val = (s % 8) * 512 + l.val := rfl

/-- Slab `s`'s share of entry `(r, n)`: the products over the slab's 512 positions. -/
def slab (X : (⟨2, ![8192, 4096]⟩ : Shape).Idx → EReal) (W : (⟨2, ![11264, 4096]⟩ : Shape).Idx → EReal)
    (r : Fin 8192) (n : Fin 11264) (s : ℕ) : EReal :=
  ∑ l : Fin 512, X (ix2 r (kpos s l)) * W (ix2 n (kpos s l))

/-- The eight slabs' shares add up to the whole contraction. -/
theorem sum_slabs (X : (⟨2, ![8192, 4096]⟩ : Shape).Idx → EReal) (W : (⟨2, ![11264, 4096]⟩ : Shape).Idx → EReal)
    (r : Fin 8192) (n : Fin 11264) :
    ∑ s ∈ Finset.range 8, slab X W r n s = ∑ k : Fin 4096, X (ix2 r k) * W (ix2 n k) :=
  (Cert.LibBlockSum.sum_blocks_range 8 512 (by norm_num) (fun k : Fin 4096 => X (ix2 r k) * W (ix2 n k))).symm

/-- The padded layer: entry `(r, n)` is the contraction of row `r` of `X` with row `n` of `W`, plus `B (0, n)`. -/
def dense (X : (⟨2, ![8192, 4096]⟩ : Shape).Idx → EReal) (W : (⟨2, ![11264, 4096]⟩ : Shape).Idx → EReal)
    (B : (⟨2, ![1, 11264]⟩ : Shape).Idx → EReal) : (⟨2, ![8192, 11264]⟩ : Shape).Idx → EReal :=
  fun j => (∑ k : Fin 4096, X (ix2 (j 0) k) * W (ix2 (j 1) k)) + B (ix2 (0 : Fin 1) (j 1))

theorem dense_apply (X : (⟨2, ![8192, 4096]⟩ : Shape).Idx → EReal) (W : (⟨2, ![11264, 4096]⟩ : Shape).Idx → EReal)
    (B : (⟨2, ![1, 11264]⟩ : Shape).Idx → EReal) (r : Fin 8192) (n : Fin 11264) :
    dense X W B (ix2 r n) = (∑ k : Fin 4096, X (ix2 r k) * W (ix2 n k)) + B (ix2 (0 : Fin 1) n) := rfl

/-- The layer itself, on the unpadded arrays: `x : [4, 2048, 4096]`, weight rows `w : [11008, 4096]` each scaled by
    its own `ws (n, 0)`, bias `b : [1, 11008]`. -/
def layer (x : (⟨3, ![4, 2048, 4096]⟩ : Shape).Idx → EReal) (w : (⟨2, ![11008, 4096]⟩ : Shape).Idx → EReal)
    (ws : (⟨2, ![11008, 1]⟩ : Shape).Idx → EReal) (b : (⟨2, ![1, 11008]⟩ : Shape).Idx → EReal) :
    (⟨3, ![4, 2048, 11008]⟩ : Shape).Idx → EReal :=
  fun i => (∑ k : Fin 4096, x (ix3 (i 0) (i 1) k) * (w (ix2 (i 2) k) * ws (ix2 (i 2) (0 : Fin 1))))
    + b (ix2 (0 : Fin 1) (i 2))

theorem layer_apply (x : (⟨3, ![4, 2048, 4096]⟩ : Shape).Idx → EReal) (w : (⟨2, ![11008, 4096]⟩ : Shape).Idx → EReal)
    (ws : (⟨2, ![11008, 1]⟩ : Shape).Idx → EReal) (b : (⟨2, ![1, 11008]⟩ : Shape).Idx → EReal)
    (b' : Fin 4) (s : Fin 2048) (n : Fin 11008) :
    layer x w ws b (ix3 b' s n)
      = (∑ k : Fin 4096, x (ix3 b' s k) * (w (ix2 n k) * ws (ix2 n (0 : Fin 1)))) + b (ix2 (0 : Fin 1) n) := rfl

end Cert.Dense

end
-- ==== Proof.Accumulate.lean ====
/-
  The output block, slab after slab.

  Fix a row block and a column block of the output: a group `g` of 8 consecutive grid points `8g, …, 8g + 7`, one per
  slab of the contraction axis.  After the point of slab `kk` the block's entry `(p, q)` holds the sum of the shares of
  slabs `0 … kk` of entry `(row, col)` of the padded layer; after slab 7 the bias entry has been added as well, so the
  block then holds the padded layer's entries.
-/
import proofs.«125276_j8504035246563_2_alg».proof.Proof.BodyCases
import proofs.«125276_j8504035246563_2_alg».proof.Proof.SlabStep
import proofs.«125276_j8504035246563_2_alg».proof.Proof.BlockReads
import proofs.«125276_j8504035246563_2_alg».proof.Proof.DenseSpec

set_option maxRecDepth 16384

noncomputable section

namespace Cert.KernelIdeal.Acc

open Idealize.ShloMosaic Idealize.ShloMosaic.TcCoe Idealize.SL.Sem Idealize.ShloMosaic.ValueIdx
open Cert.KernelIdeal Cert.KernelIdeal.Gen Cert.Dense
open scoped BigOperators

variable (m : (ℓ : Loc nD τ sig) → Buf (Elt Ideal) ℓ)

/-- The array row of row `p` of group `g`'s output block (the group's row block is `g / 8`). -/
def row (g : ℕ) (p : Fin 2048) : Fin 8192 :=
  ⟨g / 8 % 4 * 2048 + p.val, by have := p.isLt; have := Nat.mod_lt (g / 8) (show 0 < 4 by norm_num); omega⟩

/-- The array column of column `q` of group `g`'s output block (the group's column block is `g % 8`). -/
def col (g : ℕ) (q : Fin 1408) : Fin 11264 :=
  ⟨g % 8 * 1408 + q.val, by have := q.isLt; have := Nat.mod_lt g (show 0 < 8 by norm_num); omega⟩

theorem row_val (g : ℕ) (p : Fin 2048) : (row g p).val = g / 8 % 4 * 2048 + p.val := rfl
theorem col_val (g : ℕ) (q : Fin 1408) : (col g q).val = g % 8 * 1408 + q.val := rfl

/-- The activations' block and the weight rows' block at a point, as arrays of extended reals. -/
abbrev actBlk (c : Dev nD) (t : Fin cfg0.N) : S2048x512.Idx → EReal := iblk m c 0 t
abbrev wtBlk (c : Dev nD) (t : Fin cfg0.N) : S1408x512.Idx → EReal := iblk m c 1 t

/-- The product of the two input blocks at point `8g + kk`, entry `(p, q)`, is slab `kk`'s share of entry
    `(row, col)`. -/
theorem product_eq_slab (c : Dev nD) (g kk : ℕ) (hk : kk < 8) (h : 8 * g + kk < cfg0.N) (p : Fin 2048) (q : Fin 1408) :
    ∑ l : Fin 512, actBlk m c ⟨8 * g + kk, h⟩ (ix2 p l) * wtBlk m c ⟨8 * g + kk, h⟩ (ix2 q l)
      = slab (V m c main_v4) (V m c main_v5) (row g p) (col g q) kk := by
  have hN : cfg0.N = 256 := N_0
  unfold slab actBlk wtBlk
  refine Finset.sum_congr rfl fun l _ => ?_
  rw [Blocks.iblk0_apply m c ⟨8 * g + kk, h⟩ p l (row g p) (kpos kk l)
      (by rw [row_val]; dsimp only; omega) (by rw [kpos_val]; dsimp only; omega),
    Blocks.iblk1_apply m c ⟨8 * g + kk, h⟩ q l (col g q) (kpos kk l)
      (by rw [col_val]; dsimp only; omega) (by rw [kpos_val]; dsimp only; omega)]

/-- Before the last slab: after slab `kk ≤ 6` the block holds the shares of slabs `0 … kk`. -/
theorem partial_sum (c : Dev nD) (g : ℕ) (p : Fin 2048) (q : Fin 1408) :
    ∀ (kk : ℕ) (_ : kk < 7) (h : 8 * g + kk < cfg0.N),
      outsAt0 m c (8 * g + kk) h (ix2 p q)
        = ∑ s ∈ Finset.range (kk + 1), slab (V m c main_v4) (V m c main_v5) (row g p) (col g q) s
  | 0, _, h => by
    have hN : cfg0.N = 256 := N_0
    rw [outsAt0_A m c ⟨8 * g + 0, h⟩ (by dsimp only; omega) (by dsimp only; omega), Cases.out_A]
    refine (Step.pay2_apply (iblk m c 0 ⟨8 * g + 0, h⟩) (iblk m c 1 ⟨8 * g + 0, h⟩) (k0_pay1 (F := Ideal)) p q).trans ?_
    rw [Step.pay1_apply, zero_add, Finset.sum_range_one]
    exact product_eq_slab m c g 0 (by norm_num) h p q
  | kk + 1, hk, h => by
    have hN : cfg0.N = 256 := N_0
    have ih := partial_sum c g p q kk (by omega) (Nat.lt_of_succ_lt h)
    rw [outsAt0_B m c ⟨8 * g + (kk + 1), h⟩ (by dsimp only; omega) (by dsimp only; omega), Cases.out_B]
    refine (Step.pay2_apply (iblk m c 0 ⟨8 * g + (kk + 1), h⟩) (iblk m c 1 ⟨8 * g + (kk + 1), h⟩)
      (outsAt0 m c (8 * g + kk) (Nat.lt_of_succ_lt h)) p q).trans ?_
    rw [Finset.sum_range_succ _ (kk + 1), ih]
    exact congrArg _ (product_eq_slab m c g (kk + 1) (by omega) h p q)

/-- After the last slab the block holds the padded layer: the whole contraction plus the bias entry. -/
theorem full_sum (c : Dev nD) (g : ℕ) (h : 8 * g + 7 < cfg0.N) (p : Fin 2048) (q : Fin 1408) :
    outsAt0 m c (8 * g + 7) h (ix2 p q)
      = dense (V m c main_v4) (V m c main_v5) (V m c main_v6) (ix2 (row g p) (col g q)) := by
  have hN : cfg0.N = 256 := N_0
  rw [outsAt0_C m c ⟨8 * g + 7, h⟩ (by dsimp only; omega) (by dsimp only; omega), Cases.out_C]
  refine (Step.pay3_apply _ (iblk m c 2 ⟨8 * g + 7, h⟩) p q).trans ?_
  rw [dense_apply]
  refine congrArg₂ (· + ·) ?_ (Blocks.iblk2_apply m c ⟨8 * g + 7, h⟩ q (col g q) (by rw [col_val]; dsimp only; omega))
  refine (Step.pay2_apply (iblk m c 0 ⟨8 * g + 7, h⟩) (iblk m c 1 ⟨8 * g + 7, h⟩)
    (outsAt0 m c (8 * g + 6) (Nat.lt_of_succ_lt h)) p q).trans ?_
  rw [← sum_slabs, Finset.sum_range_succ _ 7, partial_sum m c g p q 6 (by norm_num) (Nat.lt_of_succ_lt h)]
  exact congrArg _ (product_eq_slab m c g 7 (by norm_num) h p q)

end Cert.KernelIdeal.Acc

end
-- ==== Proof.FinalArray.lean ====
/-
  The output array after the region.

  The output block of row block `i` and column block `j` is written back once, after the last slab (the points
  `t` with `t % 8 = 7`), and what is written is the padded layer's entries at that block's place.  The 4 × 8 blocks
  tile the array, so the array ends holding the padded layer.
-/
import proofs.«125276_j8504035246563_2_alg».proof.Proof.Accumulate

set_option maxRecDepth 16384

noncomputable section

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.Dense

variable (m : (ℓ : Loc nD τ sig) → Buf (Elt Ideal) ℓ)

/-- An entry of the array is in point `t`'s output block iff each coordinate is in the block's range on its axis. -/
theorem mem_blk (t : Fin cfg0.N) (i : S8192x11264.Idx) :
    i ∈ ((cfg0.win 3).blk t).view.set ↔ ∀ a : Fin 2, win0_3.index t a * S2048x1408.size a ≤ (i a).val
      ∧ (i a).val < win0_3.index t a * S2048x1408.size a + S2048x1408.size a := by
  show i ∈ ((View.whole main_v7).slice (win0_3.rect t)).set ↔ _
  rw [View.set_slice_whole, Rect.mem_set_unit]
  exact Iff.rfl

/-- What a point after a last slab writes back is its block of the padded layer. -/
theorem flushed_eq (c : Dev nD) (t : Fin cfg0.N) (hf : (cfg0.win 3).flush t = true) :
    (dats m 0 c).flushed 3 t
      = ((cfg0.win 3).blk t).view.read (Elt Ideal) (dense (V m c main_v4) (V m c main_v5) (V m c main_v6)) := by
  have hN : cfg0.N = 256 := N_0
  have ht : t.val < cfg0.N := t.isLt
  have h7 : t.val % 8 = 7 := (flush0_3 t).mp hf
  obtain ⟨-, -, -, -, -, -, e0, e1⟩ := Blocks.idx_facts t
  show (cfg0.win 3).cut (grid0.coords t) ((dats m 0 c).after 3 t) = _
  rw [after0_3]
  funext y
  obtain ⟨p, q, rfl⟩ : ∃ (p : Fin 2048) (q : Fin 1408), y = ix2 p q := ⟨y 0, y 1, eq_ix2 y⟩
  rw [View.read_apply]
  show outsAt0 m c t.val t.isLt (ix2 p q) = _
  have same : ∀ (u : ℕ) (hu : u < cfg0.N), u = t.val → outsAt0 m c u hu = outsAt0 m c t.val t.isLt :=
    fun u hu e => by subst e; rfl
  rw [← same (8 * (t.val / 8) + 7) (by omega) (by omega), Acc.full_sum]
  refine congrArg _ (funext fun a => Fin.ext ?_)
  match a with
  | ⟨0, _⟩ =>
    show (Acc.row (t.val / 8) p).val = win0_3.index t (0 : Fin 2) * 2048 + 1 * p.val
    rw [e0, Acc.row_val]; omega
  | ⟨1, _⟩ =>
    show (Acc.col (t.val / 8) q).val = win0_3.index t (1 : Fin 2) * 1408 + 1 * q.val
    rw [e1, Acc.col_val]; omega

/-- Every entry of the array is in the block of some point after a last slab. -/
theorem cover (i : S8192x11264.Idx) :
    ∃ t : Fin cfg0.N, (cfg0.win 3).flush t = true ∧ i ∈ ((cfg0.win 3).blk t).view.set := by
  have hN : cfg0.N = 256 := N_0
  have h0 : (i 0).val < 8192 := (i 0).isLt
  have h1 : (i 1).val < 11264 := (i 1).isLt
  have hlt : (i 0).val / 2048 * 64 + (i 1).val / 1408 * 8 + 7 < cfg0.N := by omega
  obtain ⟨-, -, -, -, -, -, e0, e1⟩ := Blocks.idx_facts ⟨(i 0).val / 2048 * 64 + (i 1).val / 1408 * 8 + 7, hlt⟩
  refine ⟨⟨(i 0).val / 2048 * 64 + (i 1).val / 1408 * 8 + 7, hlt⟩, (flush0_3 _).mpr (by dsimp only; omega), ?_⟩
  rw [mem_blk]
  intro a
  match a with
  | ⟨0, _⟩ =>
    show win0_3.index _ (0 : Fin 2) * 2048 ≤ (i 0).val ∧ (i 0).val < win0_3.index _ (0 : Fin 2) * 2048 + 2048
    rw [e0]; dsimp only; omega
  | ⟨1, _⟩ =>
    show win0_3.index _ (1 : Fin 2) * 1408 ≤ (i 1).val ∧ (i 1).val < win0_3.index _ (1 : Fin 2) * 1408 + 1408
    rw [e1]; dsimp only; omega

/-- The output array after the region is the padded layer of the three arrays the region found. -/
theorem final (c : Dev nD) :
    (dats m 0 c).arrAt 3 cfg0.N = dense (V m c main_v4) (V m c main_v5) (V m c main_v6) :=
  (dats m 0 c).arrAt_eq_of_cover 3 _ (flushed_eq m c) cover

end Cert.KernelIdeal.Final

end
-- ==== Proof.HostInputs.lean ====
/-
  The three arrays the kernel region finds, as functions of the arguments, read at an entry over the extended reals.

  Before the region the program flattens the activations `[4, 2048, 4096]` to `[8192, 4096]`, scales each weight row by
  its own scale, and appends 256 zero rows to the weights and 256 zeros to the bias row.  A change of float format is the
  identity here.  So the activations' entry `(b·2048 + s, k)` is `x (b, s, k)`; for `n < 11008` the weights' entry `(n, k)`
  is `w (n, k) * ws (n, 0)` and the bias entry `(0, n)` is `bias (0, n)`.
-/
import proofs.«125276_j8504035246563_2_alg».proof.Proof.Gen.KernelIdeal.Frame
import Idealize.ShloMosaic.Lib.ValueIdx
import Idealize.ShloMosaic.Lib.Pipeline.Value
import Idealize.ShloMosaic.Lib.KernelVsHost
import Idealize.ShloMosaic.Lib.StableHlo.Run
import Idealize.ShloMosaic.Lib.Tactic

set_option maxRecDepth 16384

noncomputable section

namespace Cert.KernelIdeal.Inputs

open Idealize.ShloMosaic Idealize.ShloMosaic.TcCoe Idealize.SL.Sem Idealize.ShloMosaic.ValueIdx
open Idealize.ShloMosaic.StableHlo
open Cert.KernelIdeal Cert.KernelIdeal.Gen

variable (m : (ℓ : Loc nD τ sig) → Buf (Elt Ideal) ℓ)

/-- The four argument arrays as arrays of extended reals. -/
abbrev argX (c : Dev nD) : S4x2048x4096.Idx → EReal := m ((c : Thread nD τ).loc main_arg0)
abbrev argW (c : Dev nD) : S11008x4096.Idx → EReal := m ((c : Thread nD τ).loc main_arg1)
abbrev argS (c : Dev nD) : S11008x1.Idx → EReal := m ((c : Thread nD τ).loc main_arg2)
abbrev argB (c : Dev nD) : S1x11008.Idx → EReal := m ((c : Thread nD τ).loc main_arg3)

/-- The flattened activations the region finds. -/
theorem acts_eq (c : Dev nD) :
    V m c main_v4
      = truncf (F := Ideal) .bf16 (shapeCast S8192x4096 (m ((c : Thread nD τ).loc main_arg0)) Facts₀.shapeCasts_S4x2048x4096_S8192x4096)
          Facts₀.bitsLt_bf16_f32 := by
  dsimp only [Gen.V, Gen.V0]
  simp only [Gen.hostOps0, Gen.hostOps0_1, Gen.hostOps0_2, Gen.hostOps0_3, List.flatten_cons, List.flatten_nil,
    List.append_nil, List.cons_append, List.nil_append]
  after_results
  rfl

/-- Entry `(b·2048 + s, k)` of the flattened activations is `x (b, s, k)`. -/
theorem acts_apply (c : Dev nD) (r : Fin 8192) (k : Fin 4096) (b : Fin 4) (s : Fin 2048)
    (hr : r.val = b.val * 2048 + s.val) :
    V m c main_v4 (ix2 r k) = m ((c : Thread nD τ).loc main_arg0) (ix3 b s k) := by
  refine (congrFun (acts_eq m c) (ix2 r k)).trans ?_
  show shapeCast S8192x4096 (m ((c : Thread nD τ).loc main_arg0)) Facts₀.shapeCasts_S4x2048x4096_S8192x4096 (ix2 r k) = _
  exact shapeCast_apply _ _ (ix2 r k) (ix3 b s k)
    (by rw [Shape.rowMajor_val_three, Shape.rowMajor_val_two]
        show (b.val * 2048 + s.val) * 4096 + k.val = r.val * 4096 + k.val
        rw [hr])

/-- The scaled, zero-extended weight rows the region finds. -/
theorem weights_eq (c : Dev nD) :
    V m c main_v5
      = pad S11264x4096 ![0, 0] ![256, 0] ![0, 0]
          (truncf (F := Ideal) .bf16 (mulf (m ((c : Thread nD τ).loc main_arg1))
            (broadcastInDim S11008x4096 ![0, 1] Facts₀.bcast_S11008x1_S11008x4096_0_1 (m ((c : Thread nD τ).loc main_arg2))))
            Facts₀.bitsLt_bf16_f32)
          (sitofp (F := Ideal) .bf16 (constantI S_ 32 0#32))
          Facts₀.pads_S11008x4096_S11264x4096_02560_000 Facts₀.h_S_ := by
  dsimp only [Gen.V, Gen.V0]
  simp only [Gen.hostOps0, Gen.hostOps0_1, Gen.hostOps0_2, Gen.hostOps0_3, List.flatten_cons, List.flatten_nil,
    List.append_nil, List.cons_append, List.nil_append]
  after_results
  rfl

/-- For a row `n < 11008`, entry `(n, k)` of the weights the region finds is `w (n, k) * ws (n, 0)`. -/
theorem weights_apply (c : Dev nD) (n : Fin 11264) (k : Fin 4096) (n' : Fin 11008) (hn : n.val = n'.val) :
    V m c main_v5 (ix2 n k) = argW m c (ix2 n' k) * argS m c (ix2 n' (0 : Fin 1)) := by
  refine (congrFun (weights_eq m c) (ix2 n k)).trans ?_
  refine (pad_apply_of_inside _ _ _ _ _ Facts₀.pads_S11008x4096_S11264x4096_02560_000 Facts₀.h_S_ (ix2 n k) (ix2 n' k)
    (fun a => ?_)).trans ?_
  · match a with
    | ⟨0, _⟩ => show n.val = 0 + n'.val * (0 + 1); omega
    | ⟨1, _⟩ => show k.val = 0 + k.val * (0 + 1); omega
  · show argW m c (ix2 n' k)
        * broadcastInDim S11008x4096 ![0, 1] Facts₀.bcast_S11008x1_S11008x4096_0_1 (argS m c) (ix2 n' k) = _
    exact congrArg _ (broadcastInDim_apply _ Facts₀.bcast_S11008x1_S11008x4096_0_1 (argS m c)
      (ix2 n' k) (ix2 n' (0 : Fin 1)) (fun a => match a with
        | ⟨0, _⟩ => by show n'.val = if (11008 : Nat) = 1 then 0 else n'.val; rw [if_neg (by decide)]
        | ⟨1, _⟩ => by show 0 = if (1 : Nat) = 1 then 0 else k.val; rw [if_pos rfl]))

/-- The zero-extended bias row the region finds. -/
theorem bias_eq (c : Dev nD) :
    V m c main_v6
      = pad S1x11264 ![0, 0] ![0, 256] ![0, 0] (m ((c : Thread nD τ).loc main_arg3))
          (sitofp (F := Ideal) .f32 (constantI S_ 32 0#32))
          Facts₀.pads_S1x11008_S1x11264_000_02560 Facts₀.h_S_ := by
  dsimp only [Gen.V, Gen.V0]
  simp only [Gen.hostOps0, Gen.hostOps0_1, Gen.hostOps0_2, Gen.hostOps0_3, List.flatten_cons, List.flatten_nil,
    List.append_nil, List.cons_append, List.nil_append]
  after_results
  rfl

/-- For `n < 11008`, entry `(0, n)` of the bias row the region finds is `bias (0, n)`. -/
theorem bias_apply (c : Dev nD) (n : Fin 11264) (n' : Fin 11008) (hn : n.val = n'.val) :
    V m c main_v6 (ix2 (0 : Fin 1) n) = m ((c : Thread nD τ).loc main_arg3) (ix2 (0 : Fin 1) n') := by
  refine (congrFun (bias_eq m c) (ix2 (0 : Fin 1) n)).trans ?_
  exact pad_apply_of_inside _ _ _ _ _ Facts₀.pads_S1x11008_S1x11264_000_02560 Facts₀.h_S_ (ix2 (0 : Fin 1) n)
    (ix2 (0 : Fin 1) n') (fun a => match a with
      | ⟨0, _⟩ => by show (0 : Nat) = 0 + 0 * (0 + 1); omega
      | ⟨1, _⟩ => by show n.val = 0 + n'.val * (0 + 1); omega)

end Cert.KernelIdeal.Inputs

end
-- ==== Proof.HostTail.lean ====
/-
  The program's result: the output array's first 11008 columns, the leading axis split back into `[4, 2048]`.
-/
import proofs.«125276_j8504035246563_2_alg».proof.Proof.FinalArray
import proofs.«125276_j8504035246563_2_alg».proof.Proof.HostInputs

set_option maxRecDepth 16384

noncomputable section

namespace Cert.KernelIdeal.Tail

open Idealize.ShloMosaic Idealize.ShloMosaic.TcCoe Idealize.SL.Sem Idealize.ShloMosaic.ValueIdx
open Idealize.ShloMosaic.Pipeline (Dat)
open Idealize.ShloMosaic.StableHlo
open Cert.KernelIdeal Cert.KernelIdeal.Gen Cert.Dense

variable (m : (ℓ : Loc nD τ sig) → Buf (Elt Ideal) ℓ)

/-- What the lines after the region leave in the result buffer: the slice and the reshape of the output array. -/
theorem result_eq (c : Dev nD) :
    Pipeline.afterTail₀ cfgs (dats m) 0 (V0 m) [hostOps1] c main_v9
      = shapeCast S4x2048x11008
          (extractStridedSlice S8192x11008 ![0, 0] (dense (V m c main_v4) (V m c main_v5) (V m c main_v6))
            Facts₀.slices_S8192x11264_S8192x11008_0_0)
          Facts₀.shapeCasts_S8192x11008_S4x2048x11008 := by
  unfold Pipeline.afterTail₀
  show StableHlo.after hostOps1 _ (Proc.devRef .tc main_v9) = _
  after_results
  have e : Pipeline.withArrays (cfgs 0).spec c (V0 m c) (fun w => (dats m 0 c).arrAt w (cfgs 0).N)
      (Proc.tc.devRef main_v7) = dense (V m c main_v4) (V m c main_v5) (V m c main_v6) :=
    (Pipeline.withArrays_arr spec0 launch0.win.arr_inj c _ _ 3).trans (Final.final m c)
  rw [e]
  rfl

/-- The result at entry `(b, s, n)` is the padded layer's entry `(b·2048 + s, n)`, which on the arguments is the
    layer's entry `(b, s, n)`. -/
theorem result_layer (c : Dev nD) :
    shapeCast S4x2048x11008
        (extractStridedSlice S8192x11008 ![0, 0] (dense (V m c main_v4) (V m c main_v5) (V m c main_v6))
          Facts₀.slices_S8192x11264_S8192x11008_0_0)
        Facts₀.shapeCasts_S8192x11008_S4x2048x11008
      = layer (Inputs.argX m c) (Inputs.argW m c) (Inputs.argS m c) (Inputs.argB m c) := by
  funext i
  obtain ⟨b, s, n, rfl⟩ : ∃ (b : Fin 4) (s : Fin 2048) (n : Fin 11008), i = ix3 b s n := ⟨i 0, i 1, i 2, eq_ix3 i⟩
  have hb : b.val < 4 := b.isLt
  have hs : s.val < 2048 := s.isLt
  have hn : n.val < 11008 := n.isLt
  have hr : b.val * 2048 + s.val < 8192 := by omega
  have hn' : n.val < 11264 := by omega
  refine (shapeCast_apply _ Facts₀.shapeCasts_S8192x11008_S4x2048x11008 (ix3 b s n)
    (ix2 (⟨b.val * 2048 + s.val, hr⟩ : Fin 8192) n)
    (by rw [Shape.rowMajor_val_two, Shape.rowMajor_val_three]; rfl)).trans ?_
  refine (extractStridedSlice_apply _ _ Facts₀.slices_S8192x11264_S8192x11008_0_0
    (ix2 (⟨b.val * 2048 + s.val, hr⟩ : Fin 8192) n)
    (ix2 (⟨b.val * 2048 + s.val, hr⟩ : Fin 8192) (⟨n.val, hn'⟩ : Fin 11264)) (fun a => ?_)).trans ?_
  · match a with
    | ⟨0, _⟩ => show b.val * 2048 + s.val = 0 + (b.val * 2048 + s.val); omega
    | ⟨1, _⟩ => show n.val = 0 + n.val; omega
  · rw [dense_apply, layer_apply]
    refine congrArg₂ (· + ·) (Finset.sum_congr rfl fun k _ => ?_) (Inputs.bias_apply m c ⟨n.val, hn'⟩ n rfl)
    rw [Inputs.acts_apply m c ⟨b.val * 2048 + s.val, hr⟩ k b s rfl, Inputs.weights_apply m c ⟨n.val, hn'⟩ k n rfl]

end Cert.KernelIdeal.Tail

end
-- ==== Proof.KernelRun.lean ====
/-
  The idealized kernel program's run: its result buffer ends holding the layer of its four arguments, and the
  arguments end unchanged.
-/
import proofs.«125276_j8504035246563_2_alg».proof.Proof.HostTail

set_option maxRecDepth 16384

noncomputable section

namespace Cert.KernelIdeal.Layer

open Idealize.ShloMosaic Idealize.ShloMosaic.TcCoe Idealize.SL.Sem
open Cert.KernelIdeal Cert.KernelIdeal.Gen Cert.Dense

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v9)
        = layer (Inputs.argX m c) (Inputs.argW m c) (Inputs.argS m c) (Inputs.argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v9 (Pipeline.mem_restRefs_of main_v9 (by decide) (by decide))).trans
        ((Tail.result_eq m c).trans (Tail.result_layer m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Layer

end
-- ==== Proof.RefLayer.lean ====
/-
  The reference computes the layer.

  The reference flattens the activations, scales each weight row by its scale, transposes, contracts the 4096
  positions, restores the leading axes and adds the bias row laid along every row.  Read at entry `(b, s, n)` this is
  `Σ k, x (b, s, k) * (w (n, k) * ws (n, 0)) + bias (0, n)`.
-/
import proofs.«125276_j8504035246563_2_alg».proof.Proof.Gen.ReferenceIdeal.Read
import proofs.«125276_j8504035246563_2_alg».proof.Proof.DenseSpec

noncomputable section

namespace Cert.ReferenceIdeal.Layer

open Idealize.ShloMosaic Idealize.ShloMosaic.ValueIdx
open Cert.ReferenceIdeal Cert.ReferenceIdeal.Read Cert.Dense
open scoped BigOperators

theorem ref_eq_layer (x0 : S4x2048x4096.Idx → EReal) (x1 : S11008x4096.Idx → EReal) (x2 : S11008x1.Idx → EReal)
    (x3 : S1x11008.Idx → EReal) :
    val_main_v8 (F := Ideal) x0 x1 x2 x3 = layer x0 x1 x2 x3 := by
  funext i
  obtain ⟨b, s, n, rfl⟩ : ∃ (b : Fin 4) (s : Fin 2048) (n : Fin 11008), i = ix3 b s n := ⟨i 0, i 1, i 2, eq_ix3 i⟩
  have hb : b.val < 4 := b.isLt
  have hs : s.val < 2048 := s.isLt
  have hn : n.val < 11008 := n.isLt
  rw [val_main_v8_apply, val_main_v5_apply, val_main_v4_apply, val_main_v7_apply, val_main_v6_apply]
  have e3 : idx_main_v6 (idx_main_v7 (ix3 b s n)) = ix2 (0 : Fin 1) n := funext fun a => Fin.ext (by
    match a with
    | ⟨0, _⟩ => rfl
    | ⟨1, _⟩ => rfl)
  rw [e3]
  show (∑ k : Fin 4096, _) + x3 (ix2 (0 : Fin 1) n) = (∑ k : Fin 4096, _) + x3 (ix2 (0 : Fin 1) n)
  refine congrArg (· + x3 (ix2 (0 : Fin 1) n)) (Finset.sum_congr rfl fun k _ => ?_)
  have hk : k.val < 4096 := k.isLt
  rw [val_main_v0_apply, val_main_v3_apply, val_main_v2_apply, val_main_v1_apply]
  have e0 : idx_main_v0 (lidx_main_v4 (idx_main_v5 (ix3 b s n)) k) = ix3 b s k := funext fun a => Fin.ext (by
    match a with
    | ⟨0, _⟩ => show (((b.val * 2048 + s.val) * 11008 + n.val) / 11008 * 4096 + k.val) / 8388608 = b.val; omega
    | ⟨1, _⟩ => show (((b.val * 2048 + s.val) * 11008 + n.val) / 11008 * 4096 + k.val) / 4096 % 2048 = s.val; omega
    | ⟨2, _⟩ => show (((b.val * 2048 + s.val) * 11008 + n.val) / 11008 * 4096 + k.val) % 4096 = k.val; omega)
  have e1 : idx_main_v3 (ridx_main_v4 (idx_main_v5 (ix3 b s n)) k) = ix2 n k := funext fun a => Fin.ext (by
    match a with
    | ⟨0, _⟩ => show ((b.val * 2048 + s.val) * 11008 + n.val) % 11008 = n.val; omega
    | ⟨1, _⟩ => rfl)
  have e2 : idx_main_v1 (ix2 n k) = ix2 n (0 : Fin 1) := funext fun a => Fin.ext (by
    match a with
    | ⟨0, _⟩ => rfl
    | ⟨1, _⟩ => rfl)
  rw [e0, e1, e2]
  rfl

end Cert.ReferenceIdeal.Layer

end
-- ==== Proof.lean ====
/-
  A dense layer with per-row weight scales: `out (b, s, n) = Σ k, x (b, s, k) * (w (n, k) * ws (n, 0)) + bias (0, n)`.

  The reference computes it with one contraction over the 4096 positions.  The kernel program scales the weight rows,
  appends zero rows and zero bias entries up to 11264 columns, and runs a 4 × 8 × 8 grid: for each 2048 × 1408 output
  block it walks the contraction axis in 8 slabs of 512, zeroing the block at the first slab, adding each slab's
  product, adding the bias row after the last, and writing the block back; the program then keeps the first 11008
  columns.  Over the extended reals a change of float format is the identity and addition is commutative and
  associative without side conditions, so the eight slab products add up to the whole contraction and the two
  programs end with the same array (no finiteness of the inputs is used).
-/
import proofs.«125276_j8504035246563_2_alg».proof.Defs
import proofs.«125276_j8504035246563_2_alg».proof.Proof.Gen.Kernel
import proofs.«125276_j8504035246563_2_alg».proof.Proof.Gen.Kernel.Skeleton
import proofs.«125276_j8504035246563_2_alg».proof.Proof.Gen.Kernel.Launch
import proofs.«125276_j8504035246563_2_alg».proof.Proof.Gen.Kernel.Points
import proofs.«125276_j8504035246563_2_alg».proof.Proof.Gen.Kernel.Frame
import proofs.«125276_j8504035246563_2_alg».proof.Proof.Gen.KernelIdeal
import proofs.«125276_j8504035246563_2_alg».proof.Proof.Gen.KernelIdeal.Skeleton
import proofs.«125276_j8504035246563_2_alg».proof.Proof.Gen.KernelIdeal.Launch
import proofs.«125276_j8504035246563_2_alg».proof.Proof.Gen.KernelIdeal.Points
import proofs.«125276_j8504035246563_2_alg».proof.Proof.Gen.KernelIdeal.Frame
import proofs.«125276_j8504035246563_2_alg».proof.Proof.Gen.ReferenceIdeal
import proofs.«125276_j8504035246563_2_alg».proof.Proof.Gen.Pre_finite_inputs
import proofs.«125276_j8504035246563_2_alg».proof.Proof.Gen.ReferenceIdeal.Run
import proofs.«125276_j8504035246563_2_alg».proof.Proof.Gen.ReferenceIdeal.Read
import proofs.«125276_j8504035246563_2_alg».proof.Proof.KernelRun
import proofs.«125276_j8504035246563_2_alg».proof.Proof.RefLayer
import Idealize.ShloMosaic.Adequacy
import Idealize.ShloMosaic.Init

noncomputable section

namespace Cert.Proof

open Idealize.ShloMosaic Idealize.SL.Sem Cert.Kernel

/-- The kernel program as printed runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments both idealized programs end with the layer of those arguments. -/
theorem algebraic : Cert.algebraic_KernelIdeal_ReferenceIdeal := by
  intro m ρ m' ρ' _ hagree
  refine ⟨fun c => Cert.Dense.layer (Cert.KernelIdeal.Inputs.argX m c) (Cert.KernelIdeal.Inputs.argW m c)
    (Cert.KernelIdeal.Inputs.argS m c) (Cert.KernelIdeal.Inputs.argB m c), Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.Layer.ref_eq_layer, (hagree c).1, (hagree c).2.1,
    (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
